-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x1024 : Shape := ⟨3, ![8, 8192, 1024]⟩
abbrev S1024x1024 : Shape := ⟨2, ![1024, 1024]⟩
abbrev S1024 : Shape := ⟨1, ![1024]⟩
abbrev S4x100 : Shape := ⟨2, ![4, 100]⟩
abbrev S50x4 : Shape := ⟨2, ![50, 4]⟩
abbrev S100x1024 : Shape := ⟨2, ![100, 1024]⟩
abbrev S1024x50 : Shape := ⟨2, ![1024, 50]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S4x100 : S_.BroadcastsInDim S4x100 (![] : Fin 0 → Fin S4x100.rank)
  reducesTo_S4x100_S_d0_1 : S4x100.ReducesTo [0, 1] S_
  bcast_S_S50x4 : S_.BroadcastsInDim S50x4 (![] : Fin 0 → Fin S50x4.rank)
  reducesTo_S50x4_S_d0_1 : S50x4.ReducesTo [0, 1] S_
  bcast_S_S100x1024 : S_.BroadcastsInDim S100x1024 (![] : Fin 0 → Fin S100x1024.rank)
  reducesTo_S100x1024_S_d0_1 : S100x1024.ReducesTo [0, 1] S_
  bcast_S_S1024x50 : S_.BroadcastsInDim S1024x50 (![] : Fin 0 → Fin S1024x50.rank)
  reducesTo_S1024x50_S_d0_1 : S1024x50.ReducesTo [0, 1] S_

variable [Facts]

def fn_part1 {F : FTy → Type} [FloatOps F] (main_arg4 : FVec F S50x4 .f32) (main_arg5 : FVec F S100x1024 .f32) (main_arg6 : FVec F S1024x50 .f32) (main_v13 : IVec S_ 1) (main_v16 : IVec S4x100 1) : IVec S_ 1 :=
  let main_c_5 : IVec S_ 1 := constantI S_ 1 1#1
  let main_v17 : IVec S_ 1 := (fun x v => Host.reduce IntOp.andi x v reducesTo_S4x100_S_d0_1 h_S_) main_v16 main_c_5
  let main_v18 : IVec S_ 1 := andi main_v13 main_v17
  let main_v19 : FVec F S50x4 .f32 := Host.absf main_arg4
  let main_cst_6 : FVec F S_ .f32 := constant S_ .f32 0x7F800000#32
  let main_v20 : FVec F S50x4 .f32 := broadcastInDim S50x4 ![] bcast_S_S50x4 main_cst_6
  let main_v21 : IVec S50x4 1 := cmpf .olt main_v19 main_v20
  let main_c_7 : IVec S_ 1 := constantI S_ 1 1#1
  let main_v22 : IVec S_ 1 := (fun x v => Host.reduce IntOp.andi x v reducesTo_S50x4_S_d0_1 h_S_) main_v21 main_c_7
  let main_v23 : IVec S_ 1 := andi main_v18 main_v22
  let main_v24 : FVec F S100x1024 .f32 := Host.absf main_arg5
  let main_cst_8 : FVec F S_ .f32 := constant S_ .f32 0x7F800000#32
  let main_v25 : FVec F S100x1024 .f32 := broadcastInDim S100x1024 ![] bcast_S_S100x1024 main_cst_8
  let main_v26 : IVec S100x1024 1 := cmpf .olt main_v24 main_v25
  let main_c_9 : IVec S_ 1 := constantI S_ 1 1#1
  let main_v27 : IVec S_ 1 := (fun x v => Host.reduce IntOp.andi x v reducesTo_S100x1024_S_d0_1 h_S_) main_v26 main_c_9
  let main_v28 : IVec S_ 1 := andi main_v23 main_v27
  let main_v29 : FVec F S1024x50 .f32 := Host.absf main_arg6
  let main_cst_10 : FVec F S_ .f32 := constant S_ .f32 0x7F800000#32
  let main_v30 : FVec F S1024x50 .f32 := broadcastInDim S1024x50 ![] bcast_S_S1024x50 main_cst_10
  let main_v31 : IVec S1024x50 1 := cmpf .olt main_v29 main_v30
  let main_c_11 : IVec S_ 1 := constantI S_ 1 1#1
  let main_v32 : IVec S_ 1 := (fun x v => Host.reduce IntOp.andi x v reducesTo_S1024x50_S_d0_1 h_S_) main_v31 main_c_11
  let main_v33 : IVec S_ 1 := andi main_v28 main_v32
  main_v33

def fn {F : FTy → Type} [FloatOps F] (main_arg0 : FVec F S8x8192x1024 .f32) (main_arg1 : FVec F S1024x1024 .f32) (main_arg2 : FVec F S1024 .f32) (main_arg3 : FVec F S4x100 .f32) (main_arg4 : FVec F S50x4 .f32) (main_arg5 : FVec F S100x1024 .f32) (main_arg6 : FVec F S1024x50 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4x100 .f32 := Host.absf main_arg3
  let main_cst_4 : FVec F S_ .f32 := constant S_ .f32 0x7F800000#32
  let main_v15 : FVec F S4x100 .f32 := broadcastInDim S4x100 ![] bcast_S_S4x100 main_cst_4
  let main_v16 : IVec S4x100 1 := cmpf .olt main_v14 main_v15
  fn_part1 (F := F) main_arg4 main_arg5 main_arg6 main_v13 main_v16
-- ==== Kernel.lean ====
abbrev S8x8192x1024 : Shape := ⟨3, ![8, 8192, 1024]⟩
abbrev S1024x1024 : Shape := ⟨2, ![1024, 1024]⟩
abbrev S1024 : Shape := ⟨1, ![1024]⟩
abbrev S4x100 : Shape := ⟨2, ![4, 100]⟩
abbrev S50x4 : Shape := ⟨2, ![50, 4]⟩
abbrev S100x1024 : Shape := ⟨2, ![100, 1024]⟩
abbrev S1024x50 : Shape := ⟨2, ![1024, 50]⟩
abbrev S4x1024 : Shape := ⟨2, ![4, 1024]⟩
abbrev S50x1024 : Shape := ⟨2, ![50, 1024]⟩
abbrev S_ : Shape := ⟨0, ![]⟩
abbrev S1x1024 : Shape := ⟨2, ![1, 1024]⟩
abbrev S65536x1024 : Shape := ⟨2, ![65536, 1024]⟩

abbrev nBuf : Space → Nat
  | .hbm => 20
  | .vmem => 6
  | .smem => 0
  | _ => 0

abbrev bufTy : (tb : Table) → Fin (tcTables nBuf tb) → BufTy
  | .hbm, ⟨0, _⟩ => ⟨S8x8192x1024, .f32⟩
  | .hbm, ⟨1, _⟩ => ⟨S1024x1024, .f32⟩
  | .hbm, ⟨2, _⟩ => ⟨S1024, .f32⟩
  | .hbm, ⟨3, _⟩ => ⟨S4x100, .f32⟩
  | .hbm, ⟨4, _⟩ => ⟨S50x4, .f32⟩
  | .hbm, ⟨5, _⟩ => ⟨S100x1024, .f32⟩
  | .hbm, ⟨6, _⟩ => ⟨S1024x50, .f32⟩
  | .hbm, ⟨7, _⟩ => ⟨S4x1024, .f32⟩
  | .hbm, ⟨8, _⟩ => ⟨S50x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S8x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024x1024 : S_.BroadcastsInDim S1024x1024 (![] : Fin 0 → Fin S1024x1024.rank)
  transposes_S1024x1024_S1024x1024_1_0 : S1024x1024.Transposes [1, 0] S1024x1024
  bitsLt_bf16_f32 : FTy.bits .bf16 < FTy.bits .f32
  shapeCasts_S1024_S1x1024 : S1024.ShapeCasts S1x1024
  shapeCasts_S8x8192x1024_S65536x1024 : S8x8192x1024.ShapeCasts S65536x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S65536x1024_S8x8192x1024 : S65536x1024.ShapeCasts S8x8192x1024
  dot_S4x100_S100x1024_S4x1024_1_0_0_1_n_n_wf : DotDims.WF S4x100 S100x1024 S4x1024 [1] [0] [0] [1] [] []
  dot_S50x4_S4x1024_S50x1024_1_0_0_1_n_n_wf : DotDims.WF S50x4 S4x1024 S50x1024 [1] [0] [0] [1] [] []
  dot_S1024x50_S50x1024_S1024x1024_1_0_0_1_n_n_wf : DotDims.WF S1024x50 S50x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S65536x1024.size a
  hwx0_3 : ∀ i : grid0.Coords, EltTy.bits .f32 = 32 ∨ (Rect.block (s := S65536x1024) S1024x1024.size (cc0_transform_3 i) (hinb0_3 i)).WholeWords (EltTy.packing .f32)

variable [Facts₀]

def dot_S4x100_S100x1024_S4x1024_1_0_0_1_n_n : DotDims S4x100 S100x1024 S4x1024 where
  lhsContracting := [1]
  rhsContracting := [0]
  lhsNonContracting := [0]
  rhsNonContracting := [1]
  lhsBatch := []
  rhsBatch := []
  wf := dot_S4x100_S100x1024_S4x1024_1_0_0_1_n_n_wf
def dot_S50x4_S4x1024_S50x1024_1_0_0_1_n_n : DotDims S50x4 S4x1024 S50x1024 where
  lhsContracting := [1]
  rhsContracting := [0]
  lhsNonContracting := [0]
  rhsNonContracting := [1]
  lhsBatch := []
  rhsBatch := []
  wf := dot_S50x4_S4x1024_S50x1024_1_0_0_1_n_n_wf
def dot_S1024x50_S50x1024_S1024x1024_1_0_0_1_n_n : DotDims S1024x50 S50x1024 S1024x1024 where
  lhsContracting := [1]
  rhsContracting := [0]
  lhsNonContracting := [0]
  rhsNonContracting := [1]
  lhsBatch := []
  rhsBatch := []
  wf := dot_S1024x50_S50x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v9) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8192x1024 : Shape := ⟨3, ![8, 8192, 1024]⟩
abbrev S1024x1024 : Shape := ⟨2, ![1024, 1024]⟩
abbrev S1024 : Shape := ⟨1, ![1024]⟩
abbrev S4x100 : Shape := ⟨2, ![4, 100]⟩
abbrev S50x4 : Shape := ⟨2, ![50, 4]⟩
abbrev S100x1024 : Shape := ⟨2, ![100, 1024]⟩
abbrev S1024x50 : Shape := ⟨2, ![1024, 50]⟩
abbrev S4x1024 : Shape := ⟨2, ![4, 1024]⟩
abbrev S50x1024 : Shape := ⟨2, ![50, 1024]⟩
abbrev S1x1x1024 : Shape := ⟨3, ![1, 1, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024x1024, .f32⟩
  | .hbm, ⟨2, _⟩ => ⟨S1024, .f32⟩
  | .hbm, ⟨3, _⟩ => ⟨S4x100, .f32⟩
  | .hbm, ⟨4, _⟩ => ⟨S50x4, .f32⟩
  | .hbm, ⟨5, _⟩ => ⟨S100x1024, .f32⟩
  | .hbm, ⟨6, _⟩ => ⟨S1024x50, .f32⟩
  | .hbm, ⟨7, _⟩ => ⟨S4x1024, .f32⟩
  | .hbm, ⟨8, _⟩ => ⟨S50x1024, .f32⟩
  | .hbm, ⟨9, _⟩ => ⟨S1024x1024, .f32⟩
  | .hbm, ⟨10, _⟩ => ⟨S8x8192x1024, .f32⟩
  | .hbm, ⟨11, _⟩ => ⟨S1x1x1024, .f32⟩
  | .hbm, ⟨12, _⟩ => ⟨S8x8192x1024, .f32⟩
  | .hbm, ⟨13, _⟩ => ⟨S8x8192x1024, .f32⟩
  | .hbm, ⟨14, _⟩ => ⟨S8x8192x1024, .f32⟩
  | .hbm, ⟨15, _⟩ => ⟨S_, .f32⟩
  | .hbm, ⟨16, _⟩ => ⟨S8x8192x1024, .f32⟩
  | .hbm, ⟨17, _⟩ => ⟨S8x8192x1024, .f32⟩
  | .hbm, ⟨18, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x8192x1024_0_1_2 : S1x1x1024.BroadcastsInDim S8x8192x1024 (![0, 1, 2] : Fin 3 → Fin S8x8192x1024.rank)
  bcast_S_S8x8192x1024 : S_.BroadcastsInDim S8x8192x1024 (![] : Fin 0 → Fin S8x8192x1024.rank)
  dot_S4x100_S100x1024_S4x1024_1_0_0_1_n_n_wf : DotDims.WF S4x100 S100x1024 S4x1024 [1] [0] [0] [1] [] []
  dot_S50x4_S4x1024_S50x1024_1_0_0_1_n_n_wf : DotDims.WF S50x4 S4x1024 S50x1024 [1] [0] [0] [1] [] []
  dot_S1024x50_S50x1024_S1024x1024_1_0_0_1_n_n_wf : DotDims.WF S1024x50 S50x1024 S1024x1024 [1] [0] [0] [1] [] []
  dot_S8x8192x1024_S1024x1024_S8x8192x1024_2_1_01_0_n_n_wf : DotDims.WF S8x8192x1024 S1024x1024 S8x8192x1024 [2] [1] [0, 1] [0] [] []

variable [Facts₀]

def dot_S4x100_S100x1024_S4x1024_1_0_0_1_n_n : DotDims S4x100 S100x1024 S4x1024 where
  lhsContracting := [1]
  rhsContracting := [0]
  lhsNonContracting := [0]
  rhsNonContracting := [1]
  lhsBatch := []
  rhsBatch := []
  wf := dot_S4x100_S100x1024_S4x1024_1_0_0_1_n_n_wf
def dot_S50x4_S4x1024_S50x1024_1_0_0_1_n_n : DotDims S50x4 S4x1024 S50x1024 where
  lhsContracting := [1]
  rhsContracting := [0]
  lhsNonContracting := [0]
  rhsNonContracting := [1]
  lhsBatch := []
  rhsBatch := []
  wf := dot_S50x4_S4x1024_S50x1024_1_0_0_1_n_n_wf
def dot_S1024x50_S50x1024_S1024x1024_1_0_0_1_n_n : DotDims S1024x50 S50x1024 S1024x1024 where
  lhsContracting := [1]
  rhsContracting := [0]
  lhsNonContracting := [0]
  rhsNonContracting := [1]
  lhsBatch := []
  rhsBatch := []
  wf := dot_S1024x50_S50x1024_S1024x1024_1_0_0_1_n_n_wf
def dot_S8x8192x1024_S1024x1024_S8x8192x1024_2_1_01_0_n_n : DotDims S8x8192x1024 S1024x1024 S8x8192x1024 where
  lhsContracting := [2]
  rhsContracting := [1]
  lhsNonContracting := [0, 1]
  rhsNonContracting := [0]
  lhsBatch := []
  rhsBatch := []
  wf := dot_S8x8192x1024_S1024x1024_S8x8192x1024_2_1_01_0_n_n_wf

class Facts : Prop extends Facts₀ where

variable [Facts]
-- ==== Proof.RealSums.lean ====
/-
  Real numbers inside the extended reals, and the one law of this certificate.

  An extended real is REAL when it is the image of a real number. Sums and products of real entries are real, a finite
  sum of real entries is the image of the sum taken in the reals. Over real entries multiplication distributes over
  addition and a real factor moves across a finite sum, which is all the law below needs:

      sum_k x_k * (w_k + c * l_k) + b  =  (sum_k x_k * w_k + b) + c * sum_k x_k * l_k .

  The summand b may be any extended real: it only moves along an associative, commutative addition.
-/
import Idealize.ShloMosaic.PureOps.Ideal

open scoped BigOperators

namespace Cert.WeightFold

/-- An extended real that is the image of a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The image of a finite sum of reals is the sum of the images. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real entries is real. -/
theorem IsReal.sum {ι : Type} (s : Finset ι) (f : ι → EReal) (h : ∀ k, IsReal (f k)) : IsReal (∑ k ∈ s, f k) := by
  choose g hg using h
  exact ⟨∑ k ∈ s, g k, by rw [coe_sum]; exact Finset.sum_congr rfl fun k _ => hg k⟩

/-- A finite sum of products of real entries is real: one entry of a matrix product of real matrices. -/
theorem IsReal.sum_mul {ι : Type} [Fintype ι] (a b : ι → EReal) (ha : ∀ k, IsReal (a k)) (hb : ∀ k, IsReal (b k)) :
    IsReal (∑ k, a k * b k) :=
  IsReal.sum _ _ fun k => (ha k).mul (hb k)

/-- THE LAW. Contracting a real row x against the folded weight row w + c * l and then adding b is contracting it against
    w, adding b, and adding c times its contraction against l. -/
theorem fold_law {ι : Type} [Fintype ι] (x w l : ι → EReal) (c b : EReal)
    (hx : ∀ k, IsReal (x k)) (hw : ∀ k, IsReal (w k)) (hl : ∀ k, IsReal (l k)) (hc : IsReal c) :
    (∑ k, x k * (w k + c * l k)) + b = ((∑ k, x k * w k) + b) + c * ∑ k, x k * l k := by
  choose xr hxr using hx
  choose wr hwr using hw
  choose lr hlr using hl
  obtain ⟨cr, rfl⟩ := hc
  have e1 : (∑ k, x k * (w k + (cr : EReal) * l k)) = ((∑ k, xr k * (wr k + cr * lr k) : ℝ) : EReal) := by
    rw [coe_sum]
    refine Finset.sum_congr rfl fun k _ => ?_
    rw [hxr k, hwr k, hlr k, EReal.coe_mul, EReal.coe_add, EReal.coe_mul]
  have e2 : (∑ k, x k * w k) = ((∑ k, xr k * wr k : ℝ) : EReal) := by
    rw [coe_sum]
    refine Finset.sum_congr rfl fun k _ => ?_
    rw [hxr k, hwr k, EReal.coe_mul]
  have e3 : (∑ k, x k * l k) = ((∑ k, xr k * lr k : ℝ) : EReal) := by
    rw [coe_sum]
    refine Finset.sum_congr rfl fun k _ => ?_
    rw [hxr k, hlr k, EReal.coe_mul]
  have hreal : (∑ k, xr k * (wr k + cr * lr k)) = (∑ k, xr k * wr k) + cr * ∑ k, xr k * lr k := by
    rw [Finset.mul_sum, ← Finset.sum_add_distrib]
    exact Finset.sum_congr rfl fun k _ => by ring
  rw [e1, e2, e3, ← EReal.coe_mul, add_right_comm, ← EReal.coe_add, hreal]

end Cert.WeightFold
-- ==== Proof.FiniteInputs.lean ====
/-
  The precondition makes every entry of every input a real number.

  The precondition is the conjunction, over the seven inputs, of "every entry's absolute value is below +infinity".
  At the ideal instance the absolute value of x is max x (-x) and the comparison is the order of the extended reals, so
  an entry passing the test is neither +infinity nor -infinity: it is the image of a real number.
-/
import proofs.«104121_j79465484910613_1_alg».proof.Pre_finite_inputs
import proofs.«104121_j79465484910613_1_alg».proof.Proof.RealSums
import Idealize.ShloMosaic.Lib.ReduceAll
import Idealize.ShloMosaic.Lib.ValueIdx

noncomputable section

namespace Cert.WeightFold

open Idealize.ShloMosaic Cert.Pre_finite_inputs

/-- The scalar shape has one index. -/
instance : Subsingleton Cert.Pre_finite_inputs.S_.Idx := ⟨fun _ _ => funext fun d => d.elim0⟩

/-- The word the test compares against denotes +infinity. -/
theorem inf_word : Ideal.ofBits .f32 0x7F800000#32 = (⊤ : EReal) := by
  simp [Ideal.ofBits, Ideal.ieee]

/-- An extended real whose absolute value is below +infinity is real. -/
theorem isReal_of_abs_lt_top (x : EReal) (h : max x (-x) < ⊤) : IsReal x := by
  induction x using EReal.rec with
  | bot => simp at h
  | coe r => exact ⟨r, rfl⟩
  | top => simp at h

/-- One conjunct of the precondition: if the test holds of all entries of x, each entry is real. -/
theorem isReal_of_all {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf x) (broadcastInDim s ![] hb (constant S_ .f32 0x7F800000#32))) init hr hu
      ValueIdx.ix0 = 1#1) (i : s.Idx) : IsReal (x i) := by
  have h1 := Host.reduce_andi_all _ init hr hu ValueIdx.ix0 e i
  have h2 : Ideal.cmp .olt (max (x i) (-(x i))) (Ideal.ofBits .f32 0x7F800000#32) = 1#1 := h1
  rw [inf_word] at h2
  apply isReal_of_abs_lt_top
  have h3 : decide (max (x i) (-(x i)) < ⊤) = true := by
    cases hd : decide (max (x i) (-(x i)) < ⊤) with
    | true => rfl
    | false =>
      have : Ideal.cmp .olt (max (x i) (-(x i))) ⊤ = 0#1 := by
        show BitVec.ofBool (decide (max (x i) (-(x i)) < ⊤)) = 0#1
        rw [hd]; rfl
      rw [this] at h2
      exact absurd h2 (by decide)
  exact of_decide_eq_true h3

variable [Facts]

/-- Under the precondition every entry of every input is real. -/
theorem inputs_real (a0 : FVec Ideal S8x8192x1024 .f32) (a1 : FVec Ideal S1024x1024 .f32) (a2 : FVec Ideal S1024 .f32)
    (a3 : FVec Ideal S4x100 .f32) (a4 : FVec Ideal S50x4 .f32) (a5 : FVec Ideal S100x1024 .f32) (a6 : FVec Ideal S1024x50 .f32)
    (h : fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have h0 := congrFun h ValueIdx.ix0
  dsimp only [fn, fn_part1] at h0
  simp only [andi, IntOp.andi_eq_one] at h0
  obtain ⟨⟨⟨⟨⟨⟨e0, e1⟩, e2⟩, e3⟩, e4⟩, e5⟩, e6⟩ := h0
  exact ⟨isReal_of_all a0 _ _ _ _ e0, isReal_of_all a1 _ _ _ _ e1, isReal_of_all a2 _ _ _ _ e2, isReal_of_all a3 _ _ _ _ e3,
    isReal_of_all a4 _ _ _ _ e4, isReal_of_all a5 _ _ _ _ e5, isReal_of_all a6 _ _ _ _ e6⟩

end Cert.WeightFold

end
-- ==== Proof.BlockProduct.lean ====
/-
  What one grid point computes, read at an index, at the ideal instance.

  The body loads a block X of 1024 rows of the flattened activations, the whole transposed folded weight Wt and the bias
  row B, and stores X @ Wt + B. At the ideal instance the change of float format is the identity, the block product onto a
  zero accumulator is a plain sum over the contracted axis, and the bias row is repeated down the rows:

      payload (p, q) = sum_k X (p, k) * Wt (k, q) + B (0, q).
-/
import proofs.«104121_j79465484910613_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.WeightFold.Body

open Idealize.ShloMosaic Idealize.ShloMosaic.ValueIdx Cert.KernelIdeal Cert.KernelIdeal.Gen

/-- The block product's dimension numbers: rows times the contracted axis, against the contracted axis times columns. -/
abbrev DB := dot_S1024x1024_S1024x1024_S1024x1024_1_0_0_1_n_n

theorem lhs_row (i : S1024x1024.Idx) (q : DB.contr.Idx) : (DB.lhsIdx i q 0).val = (i 0).val := by
  unfold DotDims.lhsIdx
  rw [dif_neg (show ¬(0 : Fin S1024x1024.rank) ∈ DB.lhsBatch by decide),
    dif_pos (show (0 : Fin S1024x1024.rank) ∈ DB.lhsNonContracting by decide)]
  rfl
theorem lhs_contr (i : S1024x1024.Idx) (q : DB.contr.Idx) : (DB.lhsIdx i q 1).val = (q ⟨0, by decide⟩).val :=
  DB.lhsIdx_val_of_single rfl i q
theorem rhs_contr (i : S1024x1024.Idx) (q : DB.contr.Idx) : (DB.rhsIdx i q 0).val = (q ⟨0, by decide⟩).val :=
  DB.rhsIdx_val_of_single rfl i q
theorem rhs_col (i : S1024x1024.Idx) (q : DB.contr.Idx) : (DB.rhsIdx i q 1).val = (i 1).val := by
  unfold DotDims.rhsIdx
  rw [dif_neg (show ¬(1 : Fin S1024x1024.rank) ∈ DB.rhsBatch by decide),
    dif_pos (show (1 : Fin S1024x1024.rank) ∈ DB.rhsNonContracting by decide)]
  rfl

/-- The block product onto the zero accumulator, at an entry: the sum over the contracted axis. -/
theorem product_apply (a b : FVec Ideal S1024x1024 .bf16) (p q : Fin 1024) :
    matmul DB none a b (constant (F := Ideal) S1024x1024 .f32 0x00000000#32) (ix2 p q)
      = ∑ k : Fin 1024, a (ix2 p k) * b (ix2 k q) := by
  refine (Ideal.matmul_constant_zero_apply DB none a b (ix2 p q)).trans ?_
  rw [← Equiv.sum_comp (contrEquiv1 DB 1024 rfl rfl).symm]
  refine Finset.sum_congr rfl fun k _ => ?_
  have hk := contrEquiv1_symm_val DB 1024 rfl rfl k
  have el : DB.lhsIdx (ix2 p q) ((contrEquiv1 DB 1024 rfl rfl).symm k) = ix2 p k := funext fun a => Fin.ext (by
    match a with
    | ⟨0, _⟩ => exact lhs_row _ _
    | ⟨1, _⟩ => exact (lhs_contr _ _).trans hk)
  have er : DB.rhsIdx (ix2 p q) ((contrEquiv1 DB 1024 rfl rfl).symm k) = ix2 k q := funext fun a => Fin.ext (by
    match a with
    | ⟨0, _⟩ => exact (rhs_contr _ _).trans hk
    | ⟨1, _⟩ => exact rhs_col _ _)
  rw [el, er]

/-- The bias row repeated down the rows, at an entry. -/
theorem bias_apply (v : FVec Ideal S1x1024 .f32) (p q : Fin 1024) :
    broadcastTo S1024x1024 v broadcasts_S1x1024_S1024x1024 (ix2 p q) = v (ix2 (0 : Fin 1) q) :=
  broadcastTo_apply v broadcasts_S1x1024_S1024x1024 (ix2 p q) (ix2 (0 : Fin 1) q) (fun a => by
    match a with
    | ⟨0, _⟩ => show (0 : Nat) = if (1 : Nat) = 1 then 0 else _; rw [if_pos rfl]
    | ⟨1, _⟩ => show q.val = if (1024 : Nat) = 1 then 0 else q.val; rw [if_neg (by decide)])

/-- THE PAYLOAD at an entry. -/
theorem payload_apply (x0 : FVec Ideal S1024x1024 .f32) (x1 : FVec Ideal S1024x1024 .bf16) (x2 : FVec Ideal S1x1024 .f32)
    (p q : Fin 1024) :
    k0_pay1 (F := Ideal) x0 x1 x2 (ix2 p q) = (∑ k : Fin 1024, x0 (ix2 p k) * x1 (ix2 k q)) + x2 (ix2 (0 : Fin 1) q) := by
  unfold k0_pay1
  rw [shapeCast_self, shapeCast_self, shapeCast_self]
  refine (addf_apply _ _ _).trans ?_
  rw [bias_apply]
  exact congrArg (· + x2 (ix2 (0 : Fin 1) q)) (product_apply _ _ p q)

end Cert.WeightFold.Body

end
-- ==== Proof.OutputArray.lean ====
/-
  From what each grid point writes back to the program's result.

  Grid point t holds rows 1024 t .. 1024 t + 1023 of the flattened activations, the whole transposed folded weight and the
  bias row, and writes back rows 1024 t .. 1024 t + 1023 of the flat result. So what it writes is block t of ONE function of
  the staged arrays,

      flat (r, o) = sum_k X2 (r, k) * Wt (k, o) + B (0, o),

  the 64 blocks cover the 65536 rows, and the array after the region is that function. The program's result is the flat
  result viewed as [8, 8192, 1024]: entry (b, s, o) is flat (b * 8192 + s, o).
-/
import proofs.«104121_j79465484910613_1_alg».proof.Proof.Gen.KernelIdeal.Frame
import proofs.«104121_j79465484910613_1_alg».proof.Proof.BlockProduct
import Idealize.ShloMosaic.Lib.Pipeline.Value
import Idealize.ShloMosaic.Lib.ValueIdx
import Idealize.ShloMosaic.Lib.StableHlo.Run

noncomputable section

namespace Cert.WeightFold.Out

open Idealize.ShloMosaic Idealize.ShloMosaic.TcCoe Idealize.SL.Sem Idealize.ShloMosaic.StableHlo Idealize.ShloMosaic.ValueIdx
open Cert.KernelIdeal Cert.KernelIdeal.Gen
open Idealize.ShloMosaic.Pipeline (Dat)

/-- The row of a flat index, as a number below 65536. -/
abbrev row (i : S65536x1024.Idx) : Fin 65536 := ⟨(i 0).val, (i 0).isLt⟩
/-- The column of a flat index, as a number below 1024. -/
abbrev col (i : S65536x1024.Idx) : Fin 1024 := ⟨(i 1).val, (i 1).isLt⟩

/-- The flat result as one function of the staged arrays. -/
def flat (X2 : S65536x1024.Idx → EReal) (Wt : S1024x1024.Idx → EReal) (B : S1x1024.Idx → EReal) : S65536x1024.Idx → EReal :=
  fun i => (∑ k : Fin 1024, X2 (ix2 (row i) k) * Wt (ix2 k (col i))) + B (ix2 (0 : Fin 1) (col i))

variable (m : (ℓ : Loc nD τ sig) → Buf (Elt Ideal) ℓ) (ρ : Dev nD → PrngReg)

theorem offset_zero : (![0, 0] : Fin 2 → Nat) = fun _ => 0 := funext fun a => by fin_cases a <;> rfl

/-- The printed block index maps, decided over the 64 grid points: the activations' block moves with the result's along
    the rows, the weight and the bias stay at block zero, and the result's row block at point t is t. -/
theorem block_indices : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 63 :=
  (by decide +kernel : ∀ t : Fin grid0.N, _)

/-- Every row block is some point's. -/
theorem block_onto : ∀ q0 : Fin 64, ∃ t : Fin cfg0.N, win0_3.index t = ![q0.val, 0] :=
  (by decide +kernel : ∀ q0 : Fin 64, ∃ t : Fin grid0.N, win0_3.index t = ![q0.val, 0])

/-- A block's entry as the flat result's entry, once each operand block's entry is the staged array's. -/
theorem point_of_reads (x0 : S1024x1024.Idx → EReal) (x1 : S1024x1024.Idx → EReal) (x2 : S1x1024.Idx → EReal)
    (X2 : S65536x1024.Idx → EReal) (Wt : S1024x1024.Idx → EReal) (B : S1x1024.Idx → EReal) (p q : Fin 1024)
    (i : S65536x1024.Idx) (h0 : ∀ k : Fin 1024, x0 (ix2 p k) = X2 (ix2 (row i) k))
    (h1 : ∀ k : Fin 1024, x1 (ix2 k q) = Wt (ix2 k (col i))) (h2 : x2 (ix2 (0 : Fin 1) q) = B (ix2 (0 : Fin 1) (col i))) :
    (∑ k : Fin 1024, x0 (ix2 p k) * x1 (ix2 k q)) + x2 (ix2 (0 : Fin 1) q) = flat X2 Wt B i := by
  unfold flat
  rw [h2]
  exact congrArg (· + B (ix2 (0 : Fin 1) (col i))) (Finset.sum_congr rfl fun k _ => by rw [h0 k, h1 k])

/-- What point t computes at entry (p, q) of its block is the flat result at that block's entry (p, q). -/
theorem point_eq (c : Dev nD) (t : Fin cfg0.N) (p q : Fin 1024) :
    k0_pay1 (iblk m c 0 t) (iblk m c 1 t) (iblk m c 2 t) (ix2 p q)
      = flat (V m c main_v9) (V m c main_v7) (V m c main_v8) (((cfg0.win 3).blk t).view.emb (ix2 p q)) := by
  obtain ⟨e0, e1, e2, e3, e4, e5, e6, e7⟩ := block_indices t
  have h0 : ∀ k : Fin 1024, ((cfg0.win 0).blk t).view.emb (ix2 p k) = ix2 (row (((cfg0.win 3).blk t).view.emb (ix2 p q))) k := by
    intro k; funext a; apply Fin.ext
    match a with
    | ⟨0, _⟩ => show win0_0.index t (0 : Fin 2) * 1024 + 1 * p.val = win0_3.index t (0 : Fin 2) * 1024 + 1 * p.val; omega
    | ⟨1, _⟩ => show win0_0.index t (1 : Fin 2) * 1024 + 1 * k.val = k.val; omega
  have h1 : ∀ k : Fin 1024, ((cfg0.win 1).blk t).view.emb (ix2 k q) = ix2 k (col (((cfg0.win 3).blk t).view.emb (ix2 p q))) := by
    intro k; funext a; apply Fin.ext
    match a with
    | ⟨0, _⟩ => show win0_1.index t (0 : Fin 2) * 1024 + 1 * k.val = k.val; omega
    | ⟨1, _⟩ => show win0_1.index t (1 : Fin 2) * 1024 + 1 * q.val = win0_3.index t (1 : Fin 2) * 1024 + 1 * q.val; omega
  have h2 : ((cfg0.win 2).blk t).view.emb (ix2 (0 : Fin 1) q) = ix2 (0 : Fin 1) (col (((cfg0.win 3).blk t).view.emb (ix2 p q))) := by
    funext a; apply Fin.ext
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  refine (Body.payload_apply (iblk m c 0 t) (iblk m c 1 t) (iblk m c 2 t) p q).trans
    (point_of_reads (iblk m c 0 t) (iblk m c 1 t) (iblk m c 2 t) (V m c main_v9) (V m c main_v7) (V m c main_v8) p q
      (((cfg0.win 3).blk t).view.emb (ix2 p q)) ?_ ?_ ?_)
  · intro k
    show V m c main_v9 (((cfg0.win 0).blk t).view.emb (ix2 p k)) = _
    rw [h0 k]
  · intro k
    show V m c main_v7 (((cfg0.win 1).blk t).view.emb (ix2 k q)) = _
    rw [h1 k]
  · show V m c main_v8 (((cfg0.win 2).blk t).view.emb (ix2 (0 : Fin 1) q)) = _
    rw [h2]

/-- WHAT POINT t WRITES BACK is block t of the flat result. -/
theorem flushed_eq (c : Dev nD) (t : Fin cfg0.N) :
    (dats m 0 c).flushed 3 t
      = ((cfg0.win 3).blk t).view.read (Elt Ideal) (flat (V m c main_v9) (V m c main_v7) (V m c main_v8)) := by
  show (cfg0.win 3).cut (grid0.coords t) ((dats m 0 c).after 3 t) = _
  rw [after0_3]
  unfold out0_3
  rw [View.canon_unit_zero offset_zero]
  simp only [View.ld_unit_zero (S := S1024x1024) offset_zero, View.ld_unit_zero (S := S1x1024) offset_zero]
  funext j
  have hj : j = ix2 (⟨(j 0).val, (j 0).isLt⟩ : Fin 1024) (⟨(j 1).val, (j 1).isLt⟩ : Fin 1024) := by
    funext a; match a with | ⟨0, _⟩ => rfl | ⟨1, _⟩ => rfl
  rw [hj]
  exact point_eq m c t _ _

/-- An index of the flat array is in point t's block iff each coordinate is in the block's range. -/
theorem mem_block (t : Fin cfg0.N) (i : S65536x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v10).slice (win0_3.rect t)).set ↔ _
  rw [View.set_slice_whole, Rect.mem_set_unit]
  exact Iff.rfl

/-- The 64 blocks cover the flat array: row r lies in the block of point r / 1024. -/
theorem covered (i : S65536x1024.Idx) :
    ∃ t : Fin cfg0.N, (cfg0.win 3).flush t = true ∧ i ∈ ((cfg0.win 3).blk t).view.set := by
  have hi0 : (i 0).val < 65536 := (i 0).isLt
  have hi1 : (i 1).val < 1024 := (i 1).isLt
  obtain ⟨t, ht⟩ := block_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE FLAT ARRAY after the region. -/
theorem final_flat (c : Dev nD) :
    (dats m 0 c).arrAt 3 cfg0.N = flat (V m c main_v9) (V m c main_v7) (V m c main_v8) :=
  (dats m 0 c).arrAt_eq_of_cover 3 (flat (V m c main_v9) (V m c main_v7) (V m c main_v8)) (fun t _ => flushed_eq m c t) covered

/-- The program's result: the flat array after the region, viewed as [8, 8192, 1024]. -/
theorem result_eq (c : Dev nD) :
    (Pipeline.afterTail₀ cfgs (dats m) 0 (V0 m) [hostOps1] c main_v11 : S8x8192x1024.Idx → Elt Ideal .f32)
      = shapeCast S8x8192x1024 (flat (V m c main_v9) (V m c main_v7) (V m c main_v8)) shapeCasts_S65536x1024_S8x8192x1024 := by
  unfold Pipeline.afterTail₀
  show StableHlo.after hostOps1 _ (Proc.devRef .tc main_v11) = _
  after_results
  have hw : Pipeline.withArrays (cfgs 0).spec c (V0 m c) (fun w => (dats m 0 c).arrAt w (cfgs 0).N) (Proc.devRef .tc main_v10)
      = flat (V m c main_v9) (V m c main_v7) (V m c main_v8) :=
    (Pipeline.withArrays_arr spec0 launch0.win.arr_inj c _ _ 3).trans (final_flat m c)
  rw [hw]
  rfl

end Cert.WeightFold.Out

end
-- ==== Proof.StagedArrays.lean ====
/-
  The three arrays the region stages, as the host operations before it leave them, read at an index.

  * the activations flattened to 65536 rows: row b * 8192 + s of the flat array is row (b, s) of the input;
  * the folded weight, transposed: entry (k, o) is W (o, k) + one * L (o, k), where L is the low-rank correction
    up_aux @ (lora_up @ (lora_down @ down_aux)) and "one" is the literal the program multiplies L by;
  * the bias as a single row: entry (0, o) is b (o).
  The narrowing of the folded weight to a shorter float format is the identity at the ideal instance.
-/
import proofs.«104121_j79465484910613_1_alg».proof.Proof.Gen.KernelIdeal.Frame
import Idealize.ShloMosaic.Lib.Pipeline.Value
import Idealize.ShloMosaic.Lib.ValueIdx
import Idealize.ShloMosaic.Lib.StableHlo.Run

noncomputable section

namespace Cert.WeightFold.Staged

open Idealize.ShloMosaic Idealize.ShloMosaic.TcCoe Idealize.SL.Sem Idealize.ShloMosaic.StableHlo Idealize.ShloMosaic.ValueIdx
open Cert.KernelIdeal Cert.KernelIdeal.Gen

/-- The low-rank correction, as three matrix products on the host. -/
def lowRank (a3 : FVec Ideal S4x100 .f32) (a4 : FVec Ideal S50x4 .f32) (a5 : FVec Ideal S100x1024 .f32)
    (a6 : FVec Ideal S1024x50 .f32) : FVec Ideal S1024x1024 .f32 :=
  Host.dotGeneral dot_S1024x50_S50x1024_S1024x1024_1_0_0_1_n_n none a6
    (Host.dotGeneral dot_S50x4_S4x1024_S50x1024_1_0_0_1_n_n none a4
      (Host.dotGeneral dot_S4x100_S100x1024_S4x1024_1_0_0_1_n_n none a3 a5))

/-- The folded weight W + one * L, transposed and narrowed. -/
def foldedT (a1 : FVec Ideal S1024x1024 .f32) (Lm : FVec Ideal S1024x1024 .f32) : FVec Ideal S1024x1024 .bf16 :=
  truncf .bf16 (transpose S1024x1024 [1, 0]
    (addf a1 (mulf (broadcastInDim S1024x1024 ![] bcast_S_S1024x1024 (constant (F := Ideal) S_ .f32 0x3F800000#32)) Lm))
    transposes_S1024x1024_S1024x1024_1_0) bitsLt_bf16_f32

/-- Entry (k, o) of the transposed folded weight. -/
theorem foldedT_apply (a1 Lm : FVec Ideal S1024x1024 .f32) (k o : Fin 1024) :
    foldedT a1 Lm (ix2 k o) = a1 (ix2 o k) + Ideal.ofBits .f32 0x3F800000#32 * Lm (ix2 o k) := by
  unfold foldedT
  refine (truncf_apply (ψ := .bf16) _ bitsLt_bf16_f32 (ix2 k o)).trans ?_
  refine (transpose_apply [1, 0] _ transposes_S1024x1024_S1024x1024_1_0 (ix2 k o) (ix2 o k) (fun b => by
    match b with
    | ⟨0, _⟩ => rfl
    | ⟨1, _⟩ => rfl)).trans ?_
  rfl

/-- Row b * 8192 + s of the flattened activations is row (b, s) of the input. -/
theorem flat_apply (a0 : FVec Ideal S8x8192x1024 .f32) (b : Fin 8) (s : Fin 8192) (k : Fin 1024) (r : Fin 65536)
    (hr : r.val = b.val * 8192 + s.val) :
    shapeCast S65536x1024 a0 shapeCasts_S8x8192x1024_S65536x1024 (ix2 r k) = a0 (ix3 b s k) :=
  shapeCast_apply a0 shapeCasts_S8x8192x1024_S65536x1024 (ix2 r k) (ix3 b s k) (by
    rw [Shape.rowMajor_val_three, Shape.rowMajor_val_two]
    show (b.val * 8192 + s.val) * 1024 + k.val = r.val * 1024 + k.val
    rw [hr])

/-- Entry (0, o) of the bias row is entry o of the bias. -/
theorem biasRow_apply (a2 : FVec Ideal S1024 .f32) (o : Fin 1024) :
    shapeCast S1x1024 a2 shapeCasts_S1024_S1x1024 (ix2 (0 : Fin 1) o) = a2 (ix1 o) :=
  shapeCast_apply a2 shapeCasts_S1024_S1x1024 (ix2 (0 : Fin 1) o) (ix1 o) (by
    rw [Shape.rowMajor_val_one, Shape.rowMajor_val_two]
    show o.val = 0 * 1024 + o.val
    omega)

variable (m : (ℓ : Loc nD τ sig) → Buf (Elt Ideal) ℓ)

/-- The region finds the activations flattened. -/
theorem staged_rows (c : Dev nD) :
    (V m c main_v9 : S65536x1024.Idx → Elt Ideal .f32)
      = shapeCast S65536x1024 (m ((c : Thread nD τ).loc main_arg0)) shapeCasts_S8x8192x1024_S65536x1024 := by
  show StableHlo.after hostOps0 (fun b => m (c, b)) (Proc.devRef .tc main_v9) = _
  after_results
  rfl

/-- The region finds the bias as one row. -/
theorem staged_bias (c : Dev nD) :
    (V m c main_v8 : S1x1024.Idx → Elt Ideal .f32)
      = shapeCast S1x1024 (m ((c : Thread nD τ).loc main_arg2)) shapeCasts_S1024_S1x1024 := by
  show StableHlo.after hostOps0 (fun b => m (c, b)) (Proc.devRef .tc main_v8) = _
  after_results
  rfl

/-- The region finds the folded weight, transposed. -/
theorem staged_weight (c : Dev nD) :
    (V m c main_v7 : S1024x1024.Idx → Elt Ideal .bf16)
      = foldedT (m ((c : Thread nD τ).loc main_arg1))
          (lowRank (m ((c : Thread nD τ).loc main_arg3)) (m ((c : Thread nD τ).loc main_arg4))
            (m ((c : Thread nD τ).loc main_arg5)) (m ((c : Thread nD τ).loc main_arg6))) := by
  show StableHlo.after hostOps0 (fun b => m (c, b)) (Proc.devRef .tc main_v7) = _
  after_results
  rfl

end Cert.WeightFold.Staged

end
-- ==== Proof.ReferenceValue.lean ====
/-
  The reference's result read at an index, and the low-rank correction's entries as real numbers.

  The reference computes, at entry (b, s, o),

      (sum_k X (b, s, k) * W (o, k) + bias (o)) + one * sum_k X (b, s, k) * L (o, k),

  with L = up_aux @ (lora_up @ (lora_down @ down_aux)) and "one" the literal it multiplies the correction by. Each entry of
  L is a finite sum of products of finite sums of products of input entries: real when the inputs are.
-/
import proofs.«104121_j79465484910613_1_alg».proof.Proof.Gen.ReferenceIdeal.Read
import proofs.«104121_j79465484910613_1_alg».proof.Proof.RealSums
import Idealize.ShloMosaic.Lib.ValueIdx

noncomputable section

namespace Cert.WeightFold.Ref

open Idealize.ShloMosaic Idealize.ShloMosaic.ValueIdx Cert.ReferenceIdeal Cert.ReferenceIdeal.Read

/-- The reference's result at entry (b, s, o). -/
theorem result_apply (x0 : FVec Ideal S8x8192x1024 .f32) (x1 : FVec Ideal S1024x1024 .f32) (x2 : FVec Ideal S1024 .f32)
    (x3 : FVec Ideal S4x100 .f32) (x4 : FVec Ideal S50x4 .f32) (x5 : FVec Ideal S100x1024 .f32) (x6 : FVec Ideal S1024x50 .f32)
    (b : Fin 8) (s : Fin 8192) (o : Fin 1024) :
    val_main_v10 (F := Ideal) x0 x1 x2 x3 x4 x5 x6 (ix3 b s o)
      = ((∑ k : Fin 1024, x0 (ix3 b s k) * x1 (ix2 o k)) + x2 (ix1 o))
        + Ideal.ofBits .f32 0x3F800000#32 * ∑ k : Fin 1024, x0 (ix3 b s k) * val_main_v2 (F := Ideal) x3 x4 x5 x6 (ix2 o k) := by
  have eL3 : ∀ k : Fin 1024, lidx_main_v3 (ix3 b s o) k = ix3 b s k := fun k => funext fun a => by
    match a with | ⟨0, _⟩ => rfl | ⟨1, _⟩ => rfl | ⟨2, _⟩ => rfl
  have eR3 : ∀ k : Fin 1024, ridx_main_v3 (ix3 b s o) k = ix2 o k := fun k => funext fun a => by
    match a with | ⟨0, _⟩ => rfl | ⟨1, _⟩ => rfl
  have eL7 : ∀ k : Fin 1024, lidx_main_v7 (ix3 b s o) k = ix3 b s k := fun k => funext fun a => by
    match a with | ⟨0, _⟩ => rfl | ⟨1, _⟩ => rfl | ⟨2, _⟩ => rfl
  have eR7 : ∀ k : Fin 1024, ridx_main_v7 (ix3 b s o) k = ix2 o k := fun k => funext fun a => by
    match a with | ⟨0, _⟩ => rfl | ⟨1, _⟩ => rfl
  have eB : idx_main_v4 (idx_main_v5 (ix3 b s o)) = ix1 o := funext fun a => by
    match a with | ⟨0, _⟩ => rfl
  rw [val_main_v10_apply, val_main_v6_apply, val_main_v9_apply, val_main_v3_apply, val_main_v5_apply, val_main_v4_apply,
    val_main_v8_apply, val_main_cst_apply, val_main_v7_apply]
  simp only [eL3, eR3, eL7, eR7, eB, Ideal.addf_def, Ideal.mulf_def, Ideal.ofBits_def]

/-- lora_down @ down_aux has real entries. -/
theorem v0_real (x3 : FVec Ideal S4x100 .f32) (x5 : FVec Ideal S100x1024 .f32)
    (h3 : ∀ i, IsReal (x3 i)) (h5 : ∀ i, IsReal (x5 i)) (i : S4x1024.Idx) : IsReal (val_main_v0 (F := Ideal) x3 x5 i) := by
  rw [val_main_v0_apply]
  exact IsReal.sum_mul _ _ (fun _ => h3 _) (fun _ => h5 _)

/-- lora_up @ (lora_down @ down_aux) has real entries. -/
theorem v1_real (x3 : FVec Ideal S4x100 .f32) (x4 : FVec Ideal S50x4 .f32) (x5 : FVec Ideal S100x1024 .f32)
    (h3 : ∀ i, IsReal (x3 i)) (h4 : ∀ i, IsReal (x4 i)) (h5 : ∀ i, IsReal (x5 i)) (i : S50x1024.Idx) :
    IsReal (val_main_v1 (F := Ideal) x3 x4 x5 i) := by
  rw [val_main_v1_apply]
  exact IsReal.sum_mul _ _ (fun _ => h4 _) (fun _ => v0_real x3 x5 h3 h5 _)

/-- The low-rank correction has real entries. -/
theorem v2_real (x3 : FVec Ideal S4x100 .f32) (x4 : FVec Ideal S50x4 .f32) (x5 : FVec Ideal S100x1024 .f32)
    (x6 : FVec Ideal S1024x50 .f32) (h3 : ∀ i, IsReal (x3 i)) (h4 : ∀ i, IsReal (x4 i)) (h5 : ∀ i, IsReal (x5 i))
    (h6 : ∀ i, IsReal (x6 i)) (i : S1024x1024.Idx) : IsReal (val_main_v2 (F := Ideal) x3 x4 x5 x6 i) := by
  rw [val_main_v2_apply]
  exact IsReal.sum_mul _ _ (fun _ => h6 _) (fun _ => v1_real x3 x4 x5 h3 h4 h5 _)

end Cert.WeightFold.Ref

end
-- ==== Proof.Joined.lean ====
/-
  The kernel's result is the reference's, entry by entry, when the inputs are real.

  Kernel, at entry (b, s, o): row b * 8192 + s of the flat result, that is

      sum_k X (b, s, k) * (W (o, k) + one * L (o, k)) + bias (o).

  Reference, at the same entry:

      (sum_k X (b, s, k) * W (o, k) + bias (o)) + one * sum_k X (b, s, k) * L (o, k).

  L is the same three matrix products in both programs, and "one" the same literal. With X, W, L real the two are equal by
  distributing the product over the folded weight and moving the literal across the sum (RealSums.fold_law); the bias only
  moves along the addition and may be any extended real.
-/
import proofs.«104121_j79465484910613_1_alg».proof.Proof.OutputArray
import proofs.«104121_j79465484910613_1_alg».proof.Proof.StagedArrays
import proofs.«104121_j79465484910613_1_alg».proof.Proof.ReferenceValue
import proofs.«104121_j79465484910613_1_alg».proof.Proof.RealSums

noncomputable section

namespace Cert.WeightFold.Joined

open Idealize.ShloMosaic Idealize.ShloMosaic.TcCoe Idealize.SL.Sem Idealize.ShloMosaic.ValueIdx
open Cert.KernelIdeal Cert.KernelIdeal.Gen

/-- The literal both programs multiply the correction by denotes the real number one. -/
theorem one_real : IsReal (Ideal.ofBits .f32 0x3F800000#32) := by
  refine ⟨1, ?_⟩
  simp [Ideal.ofBits, Ideal.ieee, -EReal.coe_mul]
  norm_num

/-- The low-rank correction is one term in the two programs: the same three host products of the same inputs. -/
theorem lowRank_eq (a3 : FVec Ideal S4x100 .f32) (a4 : FVec Ideal S50x4 .f32) (a5 : FVec Ideal S100x1024 .f32)
    (a6 : FVec Ideal S1024x50 .f32) :
    Staged.lowRank a3 a4 a5 a6 = Cert.ReferenceIdeal.Read.val_main_v2 (F := Ideal) a3 a4 a5 a6 := rfl

/-- THE VALUE EQUATION over the argument arrays: the flat result of the staged arrays, viewed as [8, 8192, 1024], is the
    reference's result. -/
theorem flat_eq_reference (a0 : FVec Ideal S8x8192x1024 .f32) (a1 : FVec Ideal S1024x1024 .f32) (a2 : FVec Ideal S1024 .f32)
    (a3 : FVec Ideal S4x100 .f32) (a4 : FVec Ideal S50x4 .f32) (a5 : FVec Ideal S100x1024 .f32) (a6 : FVec Ideal S1024x50 .f32)
    (h0 : ∀ i, IsReal (a0 i)) (h1 : ∀ i, IsReal (a1 i)) (h3 : ∀ i, IsReal (a3 i)) (h4 : ∀ i, IsReal (a4 i))
    (h5 : ∀ i, IsReal (a5 i)) (h6 : ∀ i, IsReal (a6 i)) :
    shapeCast S8x8192x1024
        (Out.flat (shapeCast S65536x1024 a0 shapeCasts_S8x8192x1024_S65536x1024)
          (Staged.foldedT a1 (Staged.lowRank a3 a4 a5 a6)) (shapeCast S1x1024 a2 shapeCasts_S1024_S1x1024))
        shapeCasts_S65536x1024_S8x8192x1024
      = Cert.ReferenceIdeal.Read.val_main_v10 (F := Ideal) a0 a1 a2 a3 a4 a5 a6 := by
  funext i
  obtain ⟨b, s, o, rfl⟩ : ∃ (b : Fin 8) (s : Fin 8192) (o : Fin 1024), i = ix3 b s o := ⟨i 0, i 1, i 2, eq_ix3 i⟩
  have hb : b.val < 8 := b.isLt
  have hs : s.val < 8192 := s.isLt
  have hr : b.val * 8192 + s.val < 65536 := by omega
  refine (shapeCast_apply _ shapeCasts_S65536x1024_S8x8192x1024 (ix3 b s o)
    (ix2 (⟨b.val * 8192 + s.val, hr⟩ : Fin 65536) o) (by
      rw [Shape.rowMajor_val_two, Shape.rowMajor_val_three]; rfl)).trans ?_
  rw [Ref.result_apply]
  show (∑ k : Fin 1024, shapeCast S65536x1024 a0 shapeCasts_S8x8192x1024_S65536x1024 (ix2 (⟨b.val * 8192 + s.val, hr⟩ : Fin 65536) k)
        * Staged.foldedT a1 (Staged.lowRank a3 a4 a5 a6) (ix2 k o))
      + shapeCast S1x1024 a2 shapeCasts_S1024_S1x1024 (ix2 (0 : Fin 1) o) = _
  simp only [Staged.flat_apply a0 b s _ (⟨b.val * 8192 + s.val, hr⟩ : Fin 65536) rfl, Staged.foldedT_apply, Staged.biasRow_apply,
    lowRank_eq]
  exact fold_law _ _ _ _ _ (fun _ => h0 _) (fun _ => h1 _) (fun _ => Ref.v2_real a3 a4 a5 a6 h3 h4 h5 h6 _) one_real

variable (m : (ℓ : Loc nD τ sig) → Buf (Elt Ideal) ℓ) (ρ : Dev nD → PrngReg)

/-- THE KERNEL PROGRAM'S RUN, read: it terminates with its result at the flat result of the staged arrays viewed as
    [8, 8192, 1024], and its arguments as launched. -/
theorem kernel_run : θ_run defs (onTc (τ := τ) (main (F := Ideal))) ⟨m, fun _ => 0, ρ⟩ (fun r => ∀ c : Dev nD,
      r.2.mem ((c.tc : Thread nD τ).loc main_v11)
        = shapeCast S8x8192x1024 (Out.flat (V m c main_v9) (V m c main_v7) (V m c main_v8)) shapeCasts_S65536x1024_S8x8192x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v11 (Pipeline.mem_restRefs_of main_v11 (by decide) (by decide))).trans (Out.result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.WeightFold.Joined

end
-- ==== Proof.lean ====
/-
  A linear layer with a low-rank correction: the fused kernel against the two-product reference, over the extended reals.

  Inputs: activations X [8, 8192, 1024], weight W [1024, 1024], bias [1024], and four small matrices whose product
  L = up_aux @ (lora_up @ (lora_down @ down_aux)) is a [1024, 1024] correction to W.

  The kernel program folds the correction into the weight on the host, W' = W + one * L, transposes it, flattens the
  activations to 65536 rows, and runs ONE matrix product per block of 1024 rows, adding the bias:
      out (b, s, o) = sum_k X (b, s, k) * (W (o, k) + one * L (o, k)) + bias (o).
  The reference contracts the activations against W and against L separately:
      out (b, s, o) = (sum_k X (b, s, k) * W (o, k) + bias (o)) + one * sum_k X (b, s, k) * L (o, k).

  At the ideal instance a float is an extended real and a change of float format is the identity, so the two differ only
  by distributing the product over W + one * L and moving the literal across the sum. Those laws hold for real numbers and
  fail at the infinities; the precondition (every input entry finite) supplies real entries of X and W and, through three
  finite sums of products, of L. The bias needs no finiteness.

  Modules: RealSums (the law), FiniteInputs (the precondition gives real entries), BlockProduct (one grid point's block at an
  entry), StagedArrays (the arrays the region finds, at an entry), OutputArray (the blocks cover the flat result; the program's
  result is its view as [8, 8192, 1024]), ReferenceValue (the reference at an entry), Joined (the two are equal; the kernel
  program's run). The three frames are the generated frame proofs and the reference's generated run; the idealization
  rewrote nothing, so its conjunct is trivial.
-/
import proofs.«104121_j79465484910613_1_alg».proof.Defs
import proofs.«104121_j79465484910613_1_alg».proof.Proof.Gen.Kernel
import proofs.«104121_j79465484910613_1_alg».proof.Proof.Gen.Kernel.Skeleton
import proofs.«104121_j79465484910613_1_alg».proof.Proof.Gen.Kernel.Launch
import proofs.«104121_j79465484910613_1_alg».proof.Proof.Gen.Kernel.Points
import proofs.«104121_j79465484910613_1_alg».proof.Proof.Gen.Kernel.Frame
import proofs.«104121_j79465484910613_1_alg».proof.Proof.Gen.KernelIdeal
import proofs.«104121_j79465484910613_1_alg».proof.Proof.Gen.KernelIdeal.Skeleton
import proofs.«104121_j79465484910613_1_alg».proof.Proof.Gen.KernelIdeal.Launch
import proofs.«104121_j79465484910613_1_alg».proof.Proof.Gen.KernelIdeal.Points
import proofs.«104121_j79465484910613_1_alg».proof.Proof.Gen.KernelIdeal.Frame
import proofs.«104121_j79465484910613_1_alg».proof.Proof.Gen.ReferenceIdeal
import proofs.«104121_j79465484910613_1_alg».proof.Proof.Gen.Pre_finite_inputs
import proofs.«104121_j79465484910613_1_alg».proof.Proof.Gen.ReferenceIdeal.Run
import proofs.«104121_j79465484910613_1_alg».proof.Proof.Gen.ReferenceIdeal.Read
import proofs.«104121_j79465484910613_1_alg».proof.Proof.FiniteInputs
import proofs.«104121_j79465484910613_1_alg».proof.Proof.Joined
import Idealize.ShloMosaic.Adequacy
import Idealize.ShloMosaic.Init

noncomputable section

namespace Cert.Proof

open Idealize.ShloMosaic Idealize.ShloMosaic.TcCoe Idealize.SL.Sem

/-- The word-level kernel program terminates without a fault and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end at the reference's function of the kernel
    program's arguments: the kernel program by the value equation under the precondition's real entries, the reference by
    its run with the agreement rewritten. -/
theorem algebraic : Cert.algebraic_KernelIdeal_ReferenceIdeal := by
  intro m ρ m' ρ' hpre hagree
  refine ⟨fun c => Cert.ReferenceIdeal.Read.val_main_v10 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun _ h c => ⟨(h c).1.trans ?_, (h c).2⟩)
      (Cert.WeightFold.Joined.kernel_run m ρ)
    obtain ⟨r0, r1, _, r3, r4, r5, r6⟩ := Cert.WeightFold.inputs_real _ _ _ _ _ _ _ (hpre c)
    rw [Cert.WeightFold.Staged.staged_rows m c, Cert.WeightFold.Staged.staged_weight m c,
      Cert.WeightFold.Staged.staged_bias m c]
    exact Cert.WeightFold.Joined.flat_eq_reference _ _ _ _ _ _ _ r0 r1 r3 r4 r5 r6
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v10_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
